-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S504x10000 : Shape := ⟨2, ![504, 10000]⟩
abbrev S504x128 : Shape := ⟨2, ![504, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S504x10000, .f32⟩
  | .local _ .vmem, ⟨3, _⟩ => ⟨S504x10000, .f32⟩
  | .local _ .vmem, ⟨4, _⟩ => ⟨S504x128, .f32⟩
  | .local _ .vmem, ⟨5, _⟩ => ⟨S504x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S504x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S504x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S504x10000_S504x10000_0_0 : ∀ a, (![0, 0] : Fin 2 → Nat) a + S504x10000.size a ≤ S504x10000.size a
  h_S504x10000 : 0 < S504x10000.numel
  inb_S504x128_S504x128_0_0 : ∀ a, (![0, 0] : Fin 2 → Nat) a + S504x128.size a ≤ S504x128.size a
  h_S504x128 : 0 < S504x128.numel
  dot_S10000x128_S128x128_S10000x128_1_0_0_1_n_n_wf : DotDims.WF S10000x128 S128x128 S10000x128 [1] [0] [0] [1] [] []
  dot_S504x10000_S10000x128_S504x128_1_0_0_1_n_n_wf : DotDims.WF S504x10000 S10000x128 S504x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S504x10000.size a < S10000x10000.size a
  hwx0_2 : ∀ i : grid0.Coords, EltTy.bits .f32 = 32 ∨ (Rect.unit (s := S10000x10000) (fun a => cc0_transform_2 i a * S504x10000.size a) (fun a => (Pipeline.Clip.of (cc0_transform_2 i a) (S504x10000.size a) (S10000x10000.size a)).extent (S504x10000.size a)) fun a => Pipeline.Clip.inb (Pipeline.Clip.ok_of (hstart0_2 i a))).WholeWords (EltTy.packing .f32)
  hwxs0_2 : ∀ i : grid0.Coords, EltTy.bits .f32 = 32 ∨ (Rect.unit (s := S504x10000) (fun _ => 0) (fun a => (Pipeline.Clip.of (cc0_transform_2 i a) (S504x10000.size a) (S10000x10000.size a)).extent (S504x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S504x128.size a < S10000x128.size a
  hwx0_3 : ∀ i : grid0.Coords, EltTy.bits .f32 = 32 ∨ (Rect.unit (s := S10000x128) (fun a => cc0_transform_3 i a * S504x128.size a) (fun a => (Pipeline.Clip.of (cc0_transform_3 i a) (S504x128.size a) (S10000x128.size a)).extent (S504x128.size a)) fun a => Pipeline.Clip.inb (Pipeline.Clip.ok_of (hstart0_3 i a))).WholeWords (EltTy.packing .f32)
  hwxs0_3 : ∀ i : grid0.Coords, EltTy.bits .f32 = 32 ∨ (Rect.unit (s := S504x128) (fun _ => 0) (fun a => (Pipeline.Clip.of (cc0_transform_3 i a) (S504x128.size a) (S10000x128.size a)).extent (S504x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S504x10000_S10000x128_S504x128_1_0_0_1_n_n : DotDims S504x10000 S10000x128 S504x128 where
  lhsContracting := [1]
  rhsContracting := [0]
  lhsNonContracting := [0]
  rhsNonContracting := [1]
  lhsBatch := []
  rhsBatch := []
  wf := dot_S504x10000_S10000x128_S504x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S504x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S504x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body at one grid point, as a Hoare triple over its five buffers: the staging buffers of the feature
  matrix x, of the weight matrix W, of the current block of 504 rows of the adjacency matrix, of the result's block
  of the same rows, and the scratch that carries the projected features x · W from point to point.

  AT THE FIRST POINT the body computes x · W (a matrix product into a zero accumulator, narrowed to half precision)
  and stores it over whatever the scratch held; AT EVERY POINT it reads the adjacency block and the scratch and stores
  the rectified product of the two over whatever the result's buffer held. It writes nothing else. So the triple
  says: x's, W's and the adjacency buffer end as they were; the result's buffer ends at the second payload of the
  adjacency buffer's contents and the scratch's; the scratch ends at the first payload of x and W (first point) or as
  it was (later points). Which of the two cases a point is in is a comparison of its coordinate with zero, decided
  over the twenty points. The triples are stated for any float instance (used here for the kernel as printed) and on any whole memrefs, so
  that they apply at whichever of a window's two staging buffers a point is on.
-/
import proofs.«115860_g23965917511725_cont_8to1_1037_8_alg».proof.Proof.Gen.Kernel.Frame
import proofs.«115860_g23965917511725_cont_8to1_1037_8_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch is taken exactly when the grid coordinate is zero: the chain of comparisons the
    body computes from the coordinate, as a proposition. -/
abbrev cond0 (i : grid0.Coords) : Prop :=
  Scalar.cmpi .ne (Scalar.extui (Scalar.cmpi .eq (BitVec.ofNat 32 (i 0).val) 0#32) : BitVec 32) 0#32 = 1#1

/-- Decided over the twenty points. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- AFTER THE FIRST POINT the branch is skipped: the body reads the adjacency block and the scratch, which holds the
    projected features `s`, and stores the rectified product into the result's buffer; every other buffer, the
    scratch too, is left as found. Stated on any whole memrefs. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S504x10000 .f32) (harg3 : arg3.IsWhole) (arg4 : Memref sig .tc .vmem S504x128 .f32) (harg4 : arg4.IsWhole)
    (arg5 : Memref sig .tc .vmem S10000x128 .bf16) (harg5 : arg5.IsWhole) (hc : ¬ cond0 i)
    (x0 : Vec F S10000x128 .f32) (x1 : Vec F S128x128 .f32) (x2 : Vec F S504x10000 .f32) (s : Vec F S10000x128 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x2 s) ∗ owns (c : Thread nD τ) arg5 fullShare s) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%f5, %hf5, H5⟩, Hk⟩
  obtain rfl := harg1.eq_unread hf0
  obtain rfl := harg2.eq_unread hf1
  obtain rfl := harg3.eq_unread hf2
  obtain rfl := harg5.eq_unread hf5
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (fun y => ⟨_, List.mem_singleton_self _, View.mem_set_unit_zero hz2 inb_S504x128_S504x128_0_0 y⟩),
      View.canon_unit_zero hz2]
    simp only [View.readAt_eq_ld, harg3.read_unread, harg5.read_unread, View.ld_unit_zero (S := S504x10000) hz2,
      View.ld_unit_zero (S := S10000x128) hz2]
  · iexists _; isplitr; · ipureintro; exact harg5.read_unread _
    iexact H5

set_option maxHeartbeats 1000000 in
/-- AT THE FIRST POINT the branch is taken: the body projects the features, x · W, and stores them over whatever the
    scratch held; then it goes on as at every point, reading the scratch back. The scratch ends holding the projected
    features and the result's buffer their rectified product with the adjacency block. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S504x10000 .f32) (harg3 : arg3.IsWhole) (arg4 : Memref sig .tc .vmem S504x128 .f32) (harg4 : arg4.IsWhole)
    (arg5 : Memref sig .tc .vmem S10000x128 .bf16) (harg5 : arg5.IsWhole) (hc : cond0 i)
    (x0 : Vec F S10000x128 .f32) (x1 : Vec F S128x128 .f32) (x2 : Vec F S504x10000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ s, owns (c : Thread nD τ) arg5 fullShare s)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x2 (k0_pay1 x0 x1)) ∗ owns (c : Thread nD τ) arg5 fullShare (k0_pay1 x0 x1)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%s5, %f5, -, H5⟩, Hk⟩
  obtain rfl := harg1.eq_unread hf0
  obtain rfl := harg2.eq_unread hf1
  obtain rfl := harg3.eq_unread hf2
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_words
    rw [View.read_writes_eq_canon _ _ _ (fun y => ⟨_, List.mem_singleton_self _, View.mem_set_unit_zero hz2 inb_S504x128_S504x128_0_0 y⟩),
      View.canon_unit_zero hz2, View.readCov_unit_zero _ hz2]
    simp only [View.readAt_eq_ld, harg1.read_unread, harg2.read_unread, harg3.read_unread, View.ld_unit_zero (S := S504x10000) hz2,
      View.ld_unit_zero (S := S10000x128) hz2, View.ld_unit_zero (S := S128x128) hz2]
  · iexists _; isplitr; swap; · iexact H5
    ipureintro
    sl_unfold_words
    rw [View.read_writes_eq_canon _ _ _ (fun y => ⟨_, List.mem_singleton_self _, View.mem_set_unit_zero hz2 inb_S10000x128_S10000x128_0_0 y⟩),
      View.canon_unit_zero hz2]
    simp only [View.readAt_eq_ld, harg1.read_unread, harg2.read_unread, View.ld_unit_zero (S := S10000x128) hz2,
      View.ld_unit_zero (S := S128x128) hz2]

end Cert.Kernel.Body

end
-- ==== Proof.FrameBits.lean ====
/-
  The frame of the kernel as printed (word level): it runs to the end, faults nowhere, and leaves its three
  argument arrays unchanged. Nothing here says what the result holds: the result's window is handed to the body at
  any contents and taken back at any contents, and the scratch is carried from point to point at contents nothing
  names. What is stated: at every grid point the staging buffers of x and W hold the whole arrays, the adjacency
  buffer holds block t of the adjacency matrix on the rows inside the matrix (at the last point 424 of the 504;
  the rest of the buffer is whatever the clipped fetch left), and the body changes none of the three.
-/
import proofs.«115860_g23965917511725_cont_8to1_1037_8_alg».proof.Proof.BodyBits

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window (3) is not described. -/
def forgets0 : Fin 4 → Bool := fun w => w.val == 3

/-- After the body at point `t`: x's and W's buffers at the whole arrays, the adjacency buffer at its block on the
    rows inside the matrix (filled out, past the matrix's end, with a word nothing reads), the result's buffer not
    named; between points the scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => (cfg0.win ⟨2, h⟩).fill (grid0.coords t) (Pipeline.Dat.unnamed (cfg := cfg0) ⟨2, h⟩ t) (iblk m c ⟨2, h⟩ t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = (cfg0.win 2).fill (grid0.coords t) (Pipeline.Dat.unnamed (cfg := cfg0) 2 t) (iblk m c 2 t) := by
  dsimp only [dats]; rfl

/-- x's and W's buffers hold the whole arrays at every point, fetched there (the first) or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The adjacency buffer is fetched at every point: its block on the rows the fetch moves, `d` elsewhere. -/
theorem before0_2 (c : Dev nD) (t : Fin cfg0.N) (d) :
    (dats m 0 c).before 2 t d = (cfg0.win 2).fill (grid0.coords t) d (iblk m c 2 t) := by
  unfold Dat.before; rw [if_pos (fetch0_2 t)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ X, owns (c : Thread nD τ) (st0_3 t) fullShare X))

set_option maxHeartbeats 1000000 in
/-- The body at any point: by the two runs of the body, the first point's and the later points'. The scratch is
    handed over at whatever it holds and taken back at whatever the body left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2, Window.cut_fill]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  have hS : ∀ s, (owns (c : Thread nD τ) (Memref.whole cc0_scratch0) fullShare s : sProp 𝕄)
      = (((c : Thread nD τ).loc cc0_scratch0) ↦{fullShare} s) := fun s => owns_whole _ _ _ _
  by_cases h0 : t.val = 0
  · iintro ⟨⟨⟨%fs, Hs⟩, Hr⟩, Ho, ⟨%d0, H0⟩, ⟨%d1, H1⟩, ⟨%d2, H2⟩, ⟨%X3, H3⟩⟩
    have hrun := fun K => run_first (F := F) c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) (Memref.whole cc0_scratch0) (Memref.isWhole_whole _)
      ((hcond0 t).mpr h0) (iblk m c 0 t) (iblk m c 1 t) ((cfg0.win 2).fill (grid0.coords t) d2 (iblk m c 2 t)) Set.univ K
    simp only [hS] at hrun
    iapply (hrun _)
    isplitl [H0]; · iexact H0
    isplitl [H1]; · iexact H1
    isplitl [H2]; · iexact H2
    isplitl [H3]; · iexists _; iexact H3
    isplitl [Hs]; · iexists fs; iexact Hs
    iintro ⟨H0, H1, H2, H3, H5⟩
    isplitl [H5 Hr]
    · isplitl [H5]; · iexists _; iexact H5
      iexact Hr
    isplitl [Ho]; · iexact Ho
    isplitl [H0]; · iexact H0
    isplitl [H1]; · iexact H1
    isplitl [H2]; · iexists d2; iexact H2
    iexists _; iexact H3
  · iintro ⟨⟨⟨%fs, Hs⟩, Hr⟩, Ho, ⟨%d0, H0⟩, ⟨%d1, H1⟩, ⟨%d2, H2⟩, ⟨%X3, H3⟩⟩
    have hrun := fun K => run_later (F := F) c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) (Memref.whole cc0_scratch0) (Memref.isWhole_whole _)
      (fun h => h0 ((hcond0 t).mp h)) (iblk m c 0 t) (iblk m c 1 t) ((cfg0.win 2).fill (grid0.coords t) d2 (iblk m c 2 t)) fs Set.univ K
    simp only [hS] at hrun
    iapply (hrun _)
    isplitl [H0]; · iexact H0
    isplitl [H1]; · iexact H1
    isplitl [H2]; · iexact H2
    isplitl [H3]; · iexists _; iexact H3
    isplitl [Hs]; · iexact Hs
    iintro ⟨H0, H1, H2, H3, H5⟩
    isplitl [H5 Hr]
    · isplitl [H5]; · iexists _; iexact H5
      iexact Hr
    isplitl [Ho]; · iexact Ho
    isplitl [H0]; · iexact H0
    isplitl [H1]; · iexact H1
    isplitl [H2]; · iexists d2; iexact H2
    iexists _; iexact H3

/-- The library's body obligation, the result's window not described. -/
theorem body_obligation (c : Dev nD) : BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of @main terminates, and every final state has the three argument arrays unchanged. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame claim's post: each argument array is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets0).ArrAt_in 0 rfl _) _) ((h c).1 0)).trans ((A_eq m c 0).trans (V_main_arg0 m c)),
     (Eq.mp (congrFun (((dats m 0 c).toRForget forgets0).ArrAt_in 2 rfl _) _) ((h c).1 2)).trans ((A_eq m c 2).trans (V_main_arg1 m c)),
     (Eq.mp (congrFun (((dats m 0 c).toRForget forgets0).ArrAt_in 1 rfl _) _) ((h c).1 1)).trans ((A_eq m c 1).trans (V_main_arg2 m c))⟩) (run_main m ρ)

end Cert.Kernel.FrameProof

end
-- ==== Proof.BodyIdeal.lean ====
/-
  The kernel body at one grid point, as a Hoare triple over its five buffers: the staging buffers of the feature
  matrix x, of the weight matrix W, of the current block of 504 rows of the adjacency matrix, of the result's block
  of the same rows, and the scratch that carries the projected features x · W from point to point.

  AT THE FIRST POINT the body computes x · W (a matrix product into a zero accumulator, narrowed to half precision)
  and stores it over whatever the scratch held; AT EVERY POINT it reads the adjacency block and the scratch and stores
  the rectified product of the two over whatever the result's buffer held. It writes nothing else. So the triple
  says: x's, W's and the adjacency buffer end as they were; the result's buffer ends at the second payload of the
  adjacency buffer's contents and the scratch's; the scratch ends at the first payload of x and W (first point) or as
  it was (later points). Which of the two cases a point is in is a comparison of its coordinate with zero, decided
  over the twenty points. The triples are stated for any float instance (used here for the idealized kernel) and on any whole memrefs, so
  that they apply at whichever of a window's two staging buffers a point is on.
-/
import proofs.«115860_g23965917511725_cont_8to1_1037_8_alg».proof.Proof.Gen.KernelIdeal.Frame
import proofs.«115860_g23965917511725_cont_8to1_1037_8_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch is taken exactly when the grid coordinate is zero: the chain of comparisons the
    body computes from the coordinate, as a proposition. -/
abbrev cond0 (i : grid0.Coords) : Prop :=
  Scalar.cmpi .ne (Scalar.extui (Scalar.cmpi .eq (BitVec.ofNat 32 (i 0).val) 0#32) : BitVec 32) 0#32 = 1#1

/-- Decided over the twenty points. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- AFTER THE FIRST POINT the branch is skipped: the body reads the adjacency block and the scratch, which holds the
    projected features `s`, and stores the rectified product into the result's buffer; every other buffer, the
    scratch too, is left as found. Stated on any whole memrefs. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S504x10000 .f32) (harg3 : arg3.IsWhole) (arg4 : Memref sig .tc .vmem S504x128 .f32) (harg4 : arg4.IsWhole)
    (arg5 : Memref sig .tc .vmem S10000x128 .bf16) (harg5 : arg5.IsWhole) (hc : ¬ cond0 i)
    (x0 : Vec F S10000x128 .f32) (x1 : Vec F S128x128 .f32) (x2 : Vec F S504x10000 .f32) (s : Vec F S10000x128 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x2 s) ∗ owns (c : Thread nD τ) arg5 fullShare s) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%f5, %hf5, H5⟩, Hk⟩
  obtain rfl := harg1.eq_unread hf0
  obtain rfl := harg2.eq_unread hf1
  obtain rfl := harg3.eq_unread hf2
  obtain rfl := harg5.eq_unread hf5
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (fun y => ⟨_, List.mem_singleton_self _, View.mem_set_unit_zero hz2 inb_S504x128_S504x128_0_0 y⟩),
      View.canon_unit_zero hz2]
    simp only [View.readAt_eq_ld, harg3.read_unread, harg5.read_unread, View.ld_unit_zero (S := S504x10000) hz2,
      View.ld_unit_zero (S := S10000x128) hz2]
  · iexists _; isplitr; · ipureintro; exact harg5.read_unread _
    iexact H5

set_option maxHeartbeats 1000000 in
/-- AT THE FIRST POINT the branch is taken: the body projects the features, x · W, and stores them over whatever the
    scratch held; then it goes on as at every point, reading the scratch back. The scratch ends holding the projected
    features and the result's buffer their rectified product with the adjacency block. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S504x10000 .f32) (harg3 : arg3.IsWhole) (arg4 : Memref sig .tc .vmem S504x128 .f32) (harg4 : arg4.IsWhole)
    (arg5 : Memref sig .tc .vmem S10000x128 .bf16) (harg5 : arg5.IsWhole) (hc : cond0 i)
    (x0 : Vec F S10000x128 .f32) (x1 : Vec F S128x128 .f32) (x2 : Vec F S504x10000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ s, owns (c : Thread nD τ) arg5 fullShare s)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x2 (k0_pay1 x0 x1)) ∗ owns (c : Thread nD τ) arg5 fullShare (k0_pay1 x0 x1)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, ⟨%s5, %f5, -, H5⟩, Hk⟩
  obtain rfl := harg1.eq_unread hf0
  obtain rfl := harg2.eq_unread hf1
  obtain rfl := harg3.eq_unread hf2
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_words
    rw [View.read_writes_eq_canon _ _ _ (fun y => ⟨_, List.mem_singleton_self _, View.mem_set_unit_zero hz2 inb_S504x128_S504x128_0_0 y⟩),
      View.canon_unit_zero hz2, View.readCov_unit_zero _ hz2]
    simp only [View.readAt_eq_ld, harg1.read_unread, harg2.read_unread, harg3.read_unread, View.ld_unit_zero (S := S504x10000) hz2,
      View.ld_unit_zero (S := S10000x128) hz2, View.ld_unit_zero (S := S128x128) hz2]
  · iexists _; isplitr; swap; · iexact H5
    ipureintro
    sl_unfold_words
    rw [View.read_writes_eq_canon _ _ _ (fun y => ⟨_, List.mem_singleton_self _, View.mem_set_unit_zero hz2 inb_S10000x128_S10000x128_0_0 y⟩),
      View.canon_unit_zero hz2]
    simp only [View.readAt_eq_ld, harg1.read_unread, harg2.read_unread, View.ld_unit_zero (S := S10000x128) hz2,
      View.ld_unit_zero (S := S128x128) hz2]

end Cert.KernelIdeal.Body

end
-- ==== Proof.BlockDefs.lean ====
/-
  The blocks the idealized kernel works on, named once. Windows 0 and 1 stage the whole feature matrix x and the whole
  weight matrix W at every grid point; window 2 stages block t of the adjacency matrix, 504 rows of it, of which at the
  last point only the first 424 lie inside the matrix; window 3 is the result's block of the same 504 rows.
  `S0` is what the scratch holds from the first point on: the projected features, computed from the two whole blocks.
  `adjPad t` is the adjacency block at point t with the rows past the matrix's end (if any) set to zero, and
  `outBlk t` the rectified product of that padded block with the projected features: on the rows inside the matrix it
  is what any execution stores there, whatever the staging buffer held on the other rows.
-/
import proofs.«115860_g23965917511725_cont_8to1_1037_8_alg».proof.Proof.Gen.KernelIdeal.Frame
import proofs.«115860_g23965917511725_cont_8to1_1037_8_alg».proof.Proof.Gen.KernelIdeal.Skeleton
import Idealize.ShloMosaic.PureOps.Ideal

set_option maxRecDepth 16384

noncomputable section

namespace Cert.KernelIdeal.Blocks

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

/-- The first grid point. -/
def t0 : Fin cfg0.N := ⟨0, by rw [show cfg0.N = 20 from N_0]; decide⟩

theorem t0_val : (t0).val = 0 := rfl

/-- The projected features x · W as the body computes them at the first point. -/
def S0 : Vec Ideal S10000x128 .bf16 := k0_pay1 (F := Ideal) (iblk m c 0 t0) (iblk m c 1 t0)

/-- The adjacency block at point `t`, zero on the rows past the matrix's end. -/
def adjPad (t : Fin cfg0.N) : S504x10000.Idx → EReal :=
  (cfg0.win 2).fill (grid0.coords t) (fun _ => (0 : EReal)) (iblk m c 2 t)

/-- The result's block at point `t`: the rectified product of the padded adjacency block with the projected features. -/
def outBlk (t : Fin cfg0.N) : S504x128.Idx → EReal := k0_pay2 (F := Ideal) (adjPad m c t) (S0 m c)

end Cert.KernelIdeal.Blocks

end
-- ==== Proof.ValueIdeal.lean ====
/-
  The idealized kernel's run WITH its values. Between grid points the scratch holds the projected features x · W from
  the first point on (before it, anything); after the body at point t the result's staging buffer holds, on the rows
  inside the array, the rectified product of block t of the adjacency matrix with the projected features. The rows of
  the last block past the array's end are computed from whatever the clipped fetch left in the adjacency buffer and
  are never written back; that the rows inside do not depend on them (each row of a matrix product reads one row of
  the left factor) is the hypothesis `hloc` below, proved where the blocks are read at an index.
-/
import proofs.«115860_g23965917511725_cont_8to1_1037_8_alg».proof.Proof.BodyIdeal
import proofs.«115860_g23965917511725_cont_8to1_1037_8_alg».proof.Proof.BlockDefs

set_option maxRecDepth 16384

noncomputable section

namespace Cert.KernelIdeal.ValueProof

open Cert.KernelIdeal Cert.KernelIdeal.Gen Cert.KernelIdeal.Body Cert.KernelIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Row-locality of the stored block, as the obligation uses it. -/
def RowLocal : Prop :=
  ∀ (c : Dev nD) (t : Fin cfg0.N) (d : (cfg0.win 2).block.Idx → EReal) (S : Vec Ideal S10000x128 .bf16),
    (cfg0.win 3).cut (grid0.coords t) (k0_pay2 (F := Ideal) ((cfg0.win 2).fill (grid0.coords t) d (iblk m c 2 t)) S)
      = (cfg0.win 3).cut (grid0.coords t) (k0_pay2 (F := Ideal) ((cfg0.win 2).fill (grid0.coords t) (fun _ => (0 : EReal)) (iblk m c 2 t)) S)

/-! ## The proof data -/

/-- The invariant between points: before the first point the scratch at anything; from then on at the projected
    features. The generator register at anything throughout. -/
def Φt (c : Dev nD) (t : Fin (cfg0.N + 1)) : sProp 𝕄 :=
  if t.val = 0 then Pipeline.ΦA spec0 c
  else iprop((((c : Thread nD τ).loc cc0_scratch0) ↦{fullShare} S0 m c) ∗ ∃ r, prngReg c r)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjPad m c t
    | ⟨3, _⟩ => outBlk m c t
  Φ t := Φt m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = adjPad m c t := by dsimp only [dats]
theorem after0_3 (c : Dev nD) (t : Fin cfg0.N) : (dats m 0 c).after 3 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = (cfg0.win 2).fill (grid0.coords t) d (iblk m c 2 t) := by
  unfold Dat.before; rw [if_pos (fetch0_2 t)]; rfl

theorem Φ_first (c : Dev nD) (t : Fin cfg0.N) (h : t.val = 0) : (dats m 0 c).Φ t.castSucc = Pipeline.ΦA spec0 c := by
  show Φt m c t.castSucc = _
  unfold Φt; rw [if_pos (by simpa using h)]
theorem Φ_later (c : Dev nD) (t : Fin cfg0.N) (h : t.val ≠ 0) :
    (dats m 0 c).Φ t.castSucc = iprop((((c : Thread nD τ).loc cc0_scratch0) ↦{fullShare} S0 m c) ∗ ∃ r, prngReg c r) := by
  show Φt m c t.castSucc = _
  unfold Φt; rw [if_neg (by simpa using h)]
theorem Φ_succ (c : Dev nD) (t : Fin cfg0.N) :
    (dats m 0 c).Φ t.succ = iprop((((c : Thread nD τ).loc cc0_scratch0) ↦{fullShare} S0 m c) ∗ ∃ r, prngReg c r) := by
  show Φt m c t.succ = _
  unfold Φt; rw [if_neg (by simp)]

theorem Φ_zero (c : Dev nD) : (dats m 0 c).Φ 0 = Pipeline.ΦA spec0 c := by
  show Φt m c 0 = _
  unfold Φt; exact if_pos rfl
theorem Φ_last (c : Dev nD) :
    (dats m 0 c).Φ (Fin.last cfg0.N) = iprop((((c : Thread nD τ).loc cc0_scratch0) ↦{fullShare} S0 m c) ∗ ∃ r, prngReg c r) := by
  show Φt m c (Fin.last cfg0.N) = _
  unfold Φt; exact if_neg (by rw [Fin.val_last, show cfg0.N = 20 from N_0]; decide)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t)))))

/-- What the body stores, filled back over its own rows inside the array, is itself: the two blocks agree there. -/
theorem stored_eq (hloc : RowLocal m) (c : Dev nD) (t : Fin cfg0.N) (d : (cfg0.win 2).block.Idx → EReal) :
    (cfg0.win 3).fill (grid0.coords t) (k0_pay2 (F := Ideal) ((cfg0.win 2).fill (grid0.coords t) d (iblk m c 2 t)) (S0 m c))
        ((cfg0.win 3).cut (grid0.coords t) (outBlk m c t))
      = k0_pay2 (F := Ideal) ((cfg0.win 2).fill (grid0.coords t) d (iblk m c 2 t)) (S0 m c) :=
  (cfg0.win 3).fill_congr_cut (grid0.coords t) (hloc c t d (S0 m c))

set_option maxHeartbeats 1000000 in
theorem sound_body (hloc : RowLocal m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2, after0_3]
  rw [show (dats m 0 c).owesAt () t.succ = (dats m 0 c).owesAt () t.castSucc from rfl, Φ_succ]
  have hS : ∀ s, (owns (c : Thread nD τ) (Memref.whole cc0_scratch0) fullShare s : sProp 𝕄)
      = (((c : Thread nD τ).loc cc0_scratch0) ↦{fullShare} s) := fun s => owns_whole _ _ _ _
  have hadj : (cfg0.win 2).cut (grid0.coords t) (adjPad m c t) = iblk m c 2 t := (cfg0.win 2).cut_fill _ _ _
  rw [hadj]
  by_cases h0 : t.val = 0
  · obtain rfl : t = t0 := Fin.ext h0
    rw [Φ_first m c t0 rfl]
    unfold Pipeline.ΦA
    rw [scopedRest0_eq]
    iintro ⟨⟨⟨%fs, Hs⟩, Hr⟩, Ho, ⟨%d0, H0⟩, ⟨%d1, H1⟩, ⟨%d2, H2⟩, ⟨%d3, H3⟩⟩
    have hrun := fun K => run_first (F := Ideal) c (grid0.coords t0) _ (hstage0_0 ((cfg0.slots t0 0).cast nbuf0_0)) _ (hstage0_1 ((cfg0.slots t0 1).cast nbuf0_1))
      _ (hstage0_2 ((cfg0.slots t0 2).cast nbuf0_2)) _ (hstage0_3 ((cfg0.slots t0 3).cast nbuf0_3)) (Memref.whole cc0_scratch0) (Memref.isWhole_whole _)
      ((hcond0 t0).mpr rfl) (iblk m c 0 t0) (iblk m c 1 t0) ((cfg0.win 2).fill (grid0.coords t0) d2 (iblk m c 2 t0)) Set.univ K
    simp only [hS] at hrun
    iapply (hrun _)
    isplitl [H0]; · iexact H0
    isplitl [H1]; · iexact H1
    isplitl [H2]; · iexact H2
    isplitl [H3]; · iexists _; iexact H3
    isplitl [Hs]; · iexists fs; iexact Hs
    iintro ⟨H0, H1, H2, H3, H5⟩
    isplitl [H5 Hr]
    · isplitl [H5]; · iexact H5
      iexact Hr
    isplitl [Ho]; · iexact Ho
    isplitl [H0]; · iexact H0
    isplitl [H1]; · iexact H1
    isplitl [H2]; · iexists d2; iexact H2
    iexists k0_pay2 (F := Ideal) ((cfg0.win 2).fill (grid0.coords t0) d2 (iblk m c 2 t0)) (S0 m c)
    rw [stored_eq m hloc c t0 d2]
    iexact H3
  · rw [Φ_later m c t h0]
    iintro ⟨⟨Hs, Hr⟩, Ho, ⟨%d0, H0⟩, ⟨%d1, H1⟩, ⟨%d2, H2⟩, ⟨%d3, H3⟩⟩
    have hrun := fun K => run_later (F := Ideal) c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) (Memref.whole cc0_scratch0) (Memref.isWhole_whole _)
      (fun h => h0 ((hcond0 t).mp h)) (iblk m c 0 t) (iblk m c 1 t) ((cfg0.win 2).fill (grid0.coords t) d2 (iblk m c 2 t)) (S0 m c) Set.univ K
    simp only [hS] at hrun
    iapply (hrun _)
    isplitl [H0]; · iexact H0
    isplitl [H1]; · iexact H1
    isplitl [H2]; · iexact H2
    isplitl [H3]; · iexists _; iexact H3
    isplitl [Hs]; · iexact Hs
    iintro ⟨H0, H1, H2, H3, H5⟩
    isplitl [H5 Hr]
    · isplitl [H5]; · iexact H5
      iexact Hr
    isplitl [Ho]; · iexact Ho
    isplitl [H0]; · iexact H0
    isplitl [H1]; · iexact H1
    isplitl [H2]; · iexists d2; iexact H2
    iexists k0_pay2 (F := Ideal) ((cfg0.win 2).fill (grid0.coords t) d2 (iblk m c 2 t)) (S0 m c)
    rw [stored_eq m hloc c t d2]
    iexact H3

theorem body_obligation (hloc : RowLocal m) (c : Dev nD) :
    BodyObligationLoose (dats m 0 c) (defs₀ (F := Ideal)) Variants.none () Set.univ := fun t => by
  rw [bigSep_W0, bigSep_W0]
  exact sound_body m hloc c t

/-! ## The run -/

set_option backward.isDefEq.respectTransparency.types false in
/-- Every weakly fair execution of @main terminates; every final state has each windowed array at what the proof data
    compute: the three arguments as launched, the result overwritten block by block with the stored rows. -/
theorem run_main (hloc : RowLocal m) :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m)
    (hin := fun c => by rw [Φ_zero])
    (hout := fun c => by
      rw [Φ_last]
      unfold Pipeline.ΦA
      rw [scopedRest0_eq]
      iintro ⟨Hs, Hr⟩
      isplitl [Hs]; · iexists _; iexact Hs
      iexact Hr)

end Cert.KernelIdeal.ValueProof

end
-- ==== Proof.Spec.lean ====
/-
  The function both programs compute, over the extended reals, index by index:
  a graph-convolution layer  relu (adj · (x · W))  with x : [10000, 128], adj : [10000, 10000], W : [128, 128].
  Entry (r, c) of the result is  max (Σ_k adj[r, k] · (Σ_j x[k, j] · W[j, c])) 0 : the inner sum is the
  projected feature (x · W)[k, c], the outer sum aggregates the projected features of all nodes with row r of
  the adjacency matrix as weights, and the maximum with zero is the rectifier. Both programs associate the
  product this way (first x · W, then adj times it), so no law of the extended reals beyond the definitions
  is needed to compare them.
-/
import Idealize.ShloMosaic.PureOps.Ideal
import Idealize.ShloMosaic.PureOps.Ideal.Laws
import Idealize.ShloMosaic.Lib.ValueIdx

noncomputable section

open scoped BigOperators

namespace Cert.GcnSpec

open Idealize.ShloMosaic Idealize.ShloMosaic.ValueIdx

/-- Node features and the result: 10000 nodes, 128 channels. -/
abbrev SN : Shape := ⟨2, ![10000, 128]⟩
/-- The dense adjacency matrix. -/
abbrev SA : Shape := ⟨2, ![10000, 10000]⟩
/-- The weight matrix. -/
abbrev SW : Shape := ⟨2, ![128, 128]⟩
/-- One block of 504 rows of the adjacency matrix, and of the result. -/
abbrev SAblk : Shape := ⟨2, ![504, 10000]⟩
abbrev SNblk : Shape := ⟨2, ![504, 128]⟩

/-- The projected features (x · W)[k, c] = Σ_j x[k, j] · W[j, c]. -/
def xw (x : SN.Idx → EReal) (W : SW.Idx → EReal) : SN.Idx → EReal :=
  fun i => ∑ j : Fin 128, x (ix2 (i 0) j) * W (ix2 j (i 1))

/-- The rectifier as both programs spell it: the maximum with the single-precision zero word. -/
def relu0 (a : EReal) : EReal := max a (Ideal.ofBits .f32 0x00000000#32)

/-- Row r of a 10000-column matrix times a [10000, 128] matrix, at column c, rectified. -/
def rowOut (arow : Fin 10000 → EReal) (S : SN.Idx → EReal) (c : Fin 128) : EReal :=
  relu0 (∑ k : Fin 10000, arow k * S (ix2 k c))

/-- The layer's result: entry (r, c) is the rectified product of row r of adj with column c of x · W. -/
def G (x : SN.Idx → EReal) (adj : SA.Idx → EReal) (W : SW.Idx → EReal) : SN.Idx → EReal :=
  fun i => rowOut (fun k => adj (ix2 (i 0) k)) (xw x W) (i 1)

theorem G_apply (x : SN.Idx → EReal) (adj : SA.Idx → EReal) (W : SW.Idx → EReal) (r : Fin 10000) (c : Fin 128) :
    G x adj W (ix2 r c) = relu0 (∑ k : Fin 10000, adj (ix2 r k) * xw x W (ix2 k c)) := rfl

theorem xw_apply (x : SN.Idx → EReal) (W : SW.Idx → EReal) (k : Fin 10000) (c : Fin 128) :
    xw x W (ix2 k c) = ∑ j : Fin 128, x (ix2 k j) * W (ix2 j c) := rfl

end Cert.GcnSpec

end
-- ==== Proof.PayloadIdeal.lean ====
/-
  The kernel body's two stored values, read entry by entry over the extended reals.
  The first is the product x · W kept for the whole run: a matrix product accumulated into zero, then a
  narrowing of the number format (the identity on extended reals) and a recast to the same shape (the
  identity). Its entry (k, c) is Σ_j x[k, j] · W[j, c].
  The second is one block of 504 rows of the result: the block of adj is narrowed (identity), multiplied by
  the kept product into zero, and the maximum with a broadcast zero is taken. Its entry (r, c) is the maximum
  with zero of Σ_k A[r, k] · S[k, c], where A is the block and S the kept product.
  In both, a matrix product's entry is a sum over the contraction shape's one-axis index; re-indexing that sum
  by the axis' coordinate, the left operand is read at (row, k) and the right at (k, column).
-/
import proofs.«115860_g23965917511725_cont_8to1_1037_8_alg».proof.Proof.Gen.KernelIdeal.Skeleton
import proofs.«115860_g23965917511725_cont_8to1_1037_8_alg».proof.Proof.Spec
import Idealize.ShloMosaic.PureOps.Ideal.Laws
import Idealize.ShloMosaic.Lib.ValueIdx
import Idealize.ShloMosaic.Lib.Pipeline.Value

noncomputable section

open scoped BigOperators

namespace Cert.GcnPayload

open Idealize.ShloMosaic Idealize.ShloMosaic.ValueIdx Cert.KernelIdeal Cert.KernelIdeal.Gen Cert.GcnSpec

/-! ## The operand positions of the two matrix products -/

/-- The first product's left operand keeps the output's row … -/
theorem lhs1_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and takes the contraction coordinate as its column. -/
theorem lhs1_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Its right operand takes the contraction coordinate as its row … -/
theorem rhs1_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the output's column. -/
theorem rhs1_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The second product's left operand keeps the output's row … -/
theorem lhs2_row (i : S504x128.Idx) (q : dot_S504x10000_S10000x128_S504x128_1_0_0_1_n_n.contr.Idx) :
    (dot_S504x10000_S10000x128_S504x128_1_0_0_1_n_n.lhsIdx i q 0).val = (i 0).val := by
  unfold DotDims.lhsIdx
  rw [dif_neg (show ¬(0 : Fin S504x10000.rank) ∈ dot_S504x10000_S10000x128_S504x128_1_0_0_1_n_n.lhsBatch by decide), dif_pos (show (0 : Fin S504x10000.rank) ∈ dot_S504x10000_S10000x128_S504x128_1_0_0_1_n_n.lhsNonContracting by decide)]
  rfl
/-- … and takes the contraction coordinate as its column. -/
theorem lhs2_col (i : S504x128.Idx) (q : dot_S504x10000_S10000x128_S504x128_1_0_0_1_n_n.contr.Idx) :
    (dot_S504x10000_S10000x128_S504x128_1_0_0_1_n_n.lhsIdx i q 1).val = (q ⟨0, by decide⟩).val :=
  dot_S504x10000_S10000x128_S504x128_1_0_0_1_n_n.lhsIdx_val_of_single rfl i q
/-- Its right operand takes the contraction coordinate as its row … -/
theorem rhs2_row (i : S504x128.Idx) (q : dot_S504x10000_S10000x128_S504x128_1_0_0_1_n_n.contr.Idx) :
    (dot_S504x10000_S10000x128_S504x128_1_0_0_1_n_n.rhsIdx i q 0).val = (q ⟨0, by decide⟩).val :=
  dot_S504x10000_S10000x128_S504x128_1_0_0_1_n_n.rhsIdx_val_of_single rfl i q
/-- … and keeps the output's column. -/
theorem rhs2_col (i : S504x128.Idx) (q : dot_S504x10000_S10000x128_S504x128_1_0_0_1_n_n.contr.Idx) :
    (dot_S504x10000_S10000x128_S504x128_1_0_0_1_n_n.rhsIdx i q 1).val = (i 1).val := by
  unfold DotDims.rhsIdx
  rw [dif_neg (show ¬(1 : Fin S10000x128.rank) ∈ dot_S504x10000_S10000x128_S504x128_1_0_0_1_n_n.rhsBatch by decide), dif_pos (show (1 : Fin S10000x128.rank) ∈ dot_S504x10000_S10000x128_S504x128_1_0_0_1_n_n.rhsNonContracting by decide)]
  rfl

/-! ## The two products into zero, entry by entry -/

/-- [10000, 128] times [128, 128] into zero: entry (k, c) is Σ_j L[k, j] · R[j, c]. -/
theorem matmul1_apply (L : FVec Ideal S10000x128 .f32) (R : FVec Ideal S128x128 .f32) (k : Fin 10000) (c : Fin 128) :
    matmul (F := Ideal) dot_S10000x128_S128x128_S10000x128_1_0_0_1_n_n none L R (constant S10000x128 .f32 0x00000000#32) (ix2 k c)
      = ∑ j : Fin 128, L (ix2 k j) * R (ix2 j c) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ix2 k c) ((ValueIdx.contrEquiv1 dot_S10000x128_S128x128_S10000x128_1_0_0_1_n_n 128 rfl rfl).symm j) = ix2 k j := funext fun a => Fin.ext (by
    match a with
    | ⟨0, _⟩ => exact lhs1_row _ _
    | ⟨1, _⟩ => exact (lhs1_col _ _).trans hj)
  have er : dot_S10000x128_S128x128_S10000x128_1_0_0_1_n_n.rhsIdx (ix2 k c) ((ValueIdx.contrEquiv1 dot_S10000x128_S128x128_S10000x128_1_0_0_1_n_n 128 rfl rfl).symm j) = ix2 j c := funext fun a => Fin.ext (by
    match a with
    | ⟨0, _⟩ => exact (rhs1_row _ _).trans hj
    | ⟨1, _⟩ => exact rhs1_col _ _)
  rw [el, er]

/-- [504, 10000] times [10000, 128] into zero: entry (r, c) is Σ_k L[r, k] · R[k, c]. -/
theorem matmul2_apply (L : FVec Ideal S504x10000 .bf16) (R : FVec Ideal S10000x128 .bf16) (r : Fin 504) (c : Fin 128) :
    matmul (F := Ideal) dot_S504x10000_S10000x128_S504x128_1_0_0_1_n_n none L R (constant S504x128 .f32 0x00000000#32) (ix2 r c)
      = ∑ k : Fin 10000, L (ix2 r k) * R (ix2 k c) := by
  simp only [matmul]
  rw [Ideal.matmul_constant_zero_apply, ← Equiv.sum_comp (ValueIdx.contrEquiv1 dot_S504x10000_S10000x128_S504x128_1_0_0_1_n_n 10000 rfl rfl).symm]
  refine Finset.sum_congr rfl fun k _ => ?_
  have hk := ValueIdx.contrEquiv1_symm_val dot_S504x10000_S10000x128_S504x128_1_0_0_1_n_n 10000 rfl rfl k
  have el : dot_S504x10000_S10000x128_S504x128_1_0_0_1_n_n.lhsIdx (ix2 r c) ((ValueIdx.contrEquiv1 dot_S504x10000_S10000x128_S504x128_1_0_0_1_n_n 10000 rfl rfl).symm k) = ix2 r k := funext fun a => Fin.ext (by
    match a with
    | ⟨0, _⟩ => exact lhs2_row _ _
    | ⟨1, _⟩ => exact (lhs2_col _ _).trans hk)
  have er : dot_S504x10000_S10000x128_S504x128_1_0_0_1_n_n.rhsIdx (ix2 r c) ((ValueIdx.contrEquiv1 dot_S504x10000_S10000x128_S504x128_1_0_0_1_n_n 10000 rfl rfl).symm k) = ix2 k c := funext fun a => Fin.ext (by
    match a with
    | ⟨0, _⟩ => exact (rhs2_row _ _).trans hk
    | ⟨1, _⟩ => exact rhs2_col _ _)
  rw [el, er]

/-! ## The two stored values -/

/-- The value kept for the whole run is x · W. -/
theorem pay1_eq (x : Vec Ideal Cert.KernelIdeal.S10000x128 .f32) (W : Vec Ideal Cert.KernelIdeal.S128x128 .f32) :
    Cert.KernelIdeal.Gen.k0_pay1 (F := Ideal) x W = Cert.GcnSpec.xw x W := by
  funext i
  obtain ⟨k, c, rfl⟩ : ∃ (k : Fin 10000) (c : Fin 128), i = ix2 k c := ⟨i 0, i 1, eq_ix2 i⟩
  unfold Gen.k0_pay1
  rw [shapeCast_self, truncf_apply, matmul1_apply, xw_apply]

/-- One block's stored value at (r, c): row r of the block times the kept product, at column c, rectified. -/
theorem pay2_apply (A : Vec Ideal Cert.KernelIdeal.S504x10000 .f32) (S : Vec Ideal Cert.KernelIdeal.S10000x128 .bf16)
    (r : Fin 504) (c : Fin 128) :
    Cert.KernelIdeal.Gen.k0_pay2 (F := Ideal) A S (ix2 r c) = Cert.GcnSpec.rowOut (fun k => A (ix2 r k)) S c := by
  unfold Gen.k0_pay2
  rw [maximumf_apply, broadcast_apply, matmul2_apply]
  simp only [truncf_apply]
  rfl

end Cert.GcnPayload

end
-- ==== Proof.BlocksIdeal.lean ====
/-
  How the kernel's blocks sit in the arrays, at the extended reals.
  The adjacency matrix is read in twenty blocks of 504 rows; 20 · 504 = 10080 is more than the matrix's 10000
  rows, so the last block overhangs the matrix by 80 rows: only its first 424 rows are fetched, and the staging
  buffer's other rows hold whatever they held. The result is written back in blocks of the same rows, cut the
  same way. Two facts make this harmless.
  Row-locality: row r of the rectified product A · S depends on row r of A only. So on the rows that are written
  back (rows inside the matrix, which are rows that were fetched) the product does not depend on what the
  staging buffer holds on the other rows.
  The cover: row r of block t is row 504 · t + r of the matrix, the feature and weight blocks are the whole
  arrays, so what point t writes back is block t of the specification; and row R of the result lies in the block
  of point R / 504 (for the last point, rows 9576 to 9999: the 424 that are written). Every entry of the result
  is therefore written with the specification's value, and the array ends holding the specification.
-/
import proofs.«115860_g23965917511725_cont_8to1_1037_8_alg».proof.Proof.BlockDefs
import proofs.«115860_g23965917511725_cont_8to1_1037_8_alg».proof.Proof.PayloadIdeal
import proofs.«115860_g23965917511725_cont_8to1_1037_8_alg».proof.Proof.Spec
import Idealize.ShloMosaic.Lib.Pipeline.Value

set_option maxRecDepth 16384

noncomputable section

open scoped BigOperators

namespace Cert.KernelIdeal.Blocks

open Cert.KernelIdeal Cert.KernelIdeal.Gen Cert.GcnSpec Cert.GcnPayload
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The sizes of what each transfer moves, decided once over the grid -/

/-- At every point the adjacency block and the result block are cut to the same number of rows, and neither is
    cut along its columns. -/
theorem size_facts : ∀ t : Fin cfg0.N,
    win0_2.xsize (grid0.coords t) (0 : Fin 2) = win0_3.xsize (grid0.coords t) (0 : Fin 2)
    ∧ win0_2.xsize (grid0.coords t) (1 : Fin 2) = 10000
    ∧ win0_3.xsize (grid0.coords t) (1 : Fin 2) = 128 :=
  (by decide +kernel : ∀ t : Fin grid0.N, _)

/-! ## Row-locality -/

/-- Row r of the rectified product depends on row r of the left factor only. -/
theorem pay2_congr_row (A A' : Vec Ideal S504x10000 .f32) (S : Vec Ideal S10000x128 .bf16) (r : Fin 504) (c' : Fin 128)
    (h : ∀ k : Fin 10000, A (ix2 r k) = A' (ix2 r k)) :
    k0_pay2 (F := Ideal) A S (ix2 r c') = k0_pay2 (F := Ideal) A' S (ix2 r c') := by
  rw [pay2_apply, pay2_apply]
  have e : (fun k : Fin 10000 => A (ix2 r k)) = fun k => A' (ix2 r k) := funext h
  rw [e]

/-- Where the transfer moves an entry, a filled block holds the fetched value, whatever it was filled out with. -/
theorem fill_indep_of_moved {G : Pipeline.Grid} (w : Pipeline.Window sig G) {α : Type} (i : G.Coords)
    (d d' : w.block.Idx → α) (g : (w.xblock i).Idx → α) (j : w.block.Idx) (hm : w.moved i j = true) :
    w.fill i d g j = w.fill i d' g j := by
  unfold Pipeline.Window.fill
  rw [dif_pos hm, dif_pos hm]

/-- At grid coordinates where the result block is cut to no more rows than the adjacency block, and the adjacency
    block is not cut along its columns: the rows of the product that are written back do not depend on what the
    adjacency staging buffer holds outside the fetched part. -/
theorem cut_pay2_fill_indep (i : grid0.Coords)
    (h0 : win0_3.xsize i (0 : Fin 2) ≤ win0_2.xsize i (0 : Fin 2)) (h1 : win0_2.xsize i (1 : Fin 2) = 10000)
    (d d' : win0_2.block.Idx → EReal) (g : (win0_2.xblock i).Idx → EReal) (S : Vec Ideal S10000x128 .bf16) :
    win0_3.cut i (k0_pay2 (F := Ideal) (win0_2.fill i d g) S) = win0_3.cut i (k0_pay2 (F := Ideal) (win0_2.fill i d' g) S) := by
  funext j
  have hj0 : (j 0).val < win0_3.xsize i (0 : Fin 2) := (j 0).isLt
  have hr : (j 0).val < 504 := Nat.lt_of_lt_of_le (j 0).isLt (win0_3.xsize_le i (0 : Fin 2))
  have hc : (j 1).val < 128 := Nat.lt_of_lt_of_le (j 1).isLt (win0_3.xsize_le i (1 : Fin 2))
  have e : win0_3.xinj i j = ix2 (⟨(j 0).val, hr⟩ : Fin 504) (⟨(j 1).val, hc⟩ : Fin 128) :=
    funext fun a => by match a with | ⟨0, _⟩ => rfl | ⟨1, _⟩ => rfl
  show k0_pay2 (F := Ideal) (win0_2.fill i d g) S (win0_3.xinj i j) = k0_pay2 (F := Ideal) (win0_2.fill i d' g) S (win0_3.xinj i j)
  rw [e]
  refine pay2_congr_row _ _ S _ _ fun k => ?_
  refine fill_indep_of_moved win0_2 i d d' g _ ((win0_2.moved_iff i _).mpr fun a => ?_)
  match a with
  | ⟨0, _⟩ => exact Nat.lt_of_lt_of_le hj0 h0
  | ⟨1, _⟩ => exact lt_of_lt_of_eq k.isLt h1.symm

/-- What the body stores on the rows inside the array does not depend on what the adjacency staging buffer holds
    past the array's end. -/
theorem cut_out_indep (t : Fin cfg0.N) (d : (cfg0.win 2).block.Idx → EReal) (S : Vec Ideal S10000x128 .bf16) :
    (cfg0.win 3).cut (grid0.coords t) (k0_pay2 (F := Ideal) ((cfg0.win 2).fill (grid0.coords t) d (iblk m c 2 t)) S)
  = (cfg0.win 3).cut (grid0.coords t) (k0_pay2 (F := Ideal) ((cfg0.win 2).fill (grid0.coords t) (fun _ => (0 : EReal)) (iblk m c 2 t)) S) := by
  obtain ⟨e0, e1, _⟩ := size_facts t
  exact cut_pay2_fill_indep (grid0.coords t) (le_of_eq e0.symm) e1 d (fun _ => (0 : EReal)) (iblk m c 2 t) S

/-! ## Where the blocks sit: the printed index maps, decided once over the grid -/

/-- The feature and weight windows always sit at block index (0, 0): they are the whole arrays. The adjacency and
    result windows' block index at point t is (t, 0). The result block is 504 rows at every point but the last,
    where it is the 424 rows left. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ ((t.val < 19 ∧ win0_3.xsize (grid0.coords t) (0 : Fin 2) = 504)
       ∨ (t.val = 19 ∧ win0_3.xsize (grid0.coords t) (0 : Fin 2) = 424)) :=
  (by decide +kernel : ∀ t : Fin grid0.N, _)

/-! ## The input blocks, read off the arrays -/

/-- The feature window's block is the whole feature matrix, at every point. -/
theorem iblk0_eq (t : Fin cfg0.N) : (iblk m c 0 t : S10000x128.Idx → EReal) = V m c main_arg0 := by
  funext y
  obtain ⟨e0, e1, _⟩ := index_facts t
  show V m c main_arg0 (((cfg0.win 0).blk t).view.emb y) = V m c main_arg0 y
  refine congrArg (V m c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weight window's block is the whole weight matrix, at every point. -/
theorem iblk1_eq (t : Fin cfg0.N) : (iblk m c 1 t : S128x128.Idx → EReal) = V m c main_arg2 := by
  funext y
  obtain ⟨_, _, e0, e1, _⟩ := index_facts t
  show V m c main_arg2 (((cfg0.win 1).blk t).view.emb y) = V m c main_arg2 y
  refine congrArg (V m c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What the scratch holds from the first point on is the projected features x · W. -/
theorem S0_eq : S0 m c = xw (V m c main_arg0) (V m c main_arg2) := by
  show k0_pay1 (F := Ideal) (iblk m c 0 t0) (iblk m c 1 t0) = _
  rw [iblk0_eq m c t0, iblk1_eq m c t0, pay1_eq]

/-- A fetched entry of the padded adjacency block: row r of block t is row 504 · t + r of the matrix. -/
theorem adjPad_apply (t : Fin cfg0.N) (r : Fin 504) (k : Fin 10000)
    (hr : r.val < win0_2.xsize (grid0.coords t) (0 : Fin 2)) (R : Fin 10000) (hR : R.val = 504 * t.val + r.val) :
    adjPad m c t (ix2 r k) = V m c main_arg1 (ix2 R k) := by
  obtain ⟨_, _, _, _, e0, e1, _⟩ := index_facts t
  have hx1 := (size_facts t).2.1
  have hm : win0_2.moved (grid0.coords t) (ix2 r k) = true := (win0_2.moved_iff _ _).mpr fun a => by
    match a with
    | ⟨0, _⟩ => exact hr
    | ⟨1, _⟩ => exact lt_of_lt_of_eq k.isLt hx1.symm
  unfold adjPad Pipeline.Window.fill
  rw [dif_pos hm]
  show V m c main_arg1 (((cfg0.win 2).blk t).view.emb _) = V m c main_arg1 (ix2 R k)
  refine congrArg (V m c main_arg1) (funext fun a => Fin.ext ?_)
  match a with
  | ⟨0, _⟩ => show win0_2.index t (0 : Fin 2) * 504 + 1 * r.val = R.val; rw [e0, hR]; omega
  | ⟨1, _⟩ => show win0_2.index t (1 : Fin 2) * 10000 + 1 * k.val = k.val; rw [e1]; omega

/-! ## What each point writes back -/

/-- What point t writes back is block t of the specification: on the rows inside the array the padded block is
    the matrix's rows 504 · t + r, and the scratch holds x · W. -/
theorem flushed_eq (dat : Pipeline.Dat τ (Elt Ideal) Unit ℕ (UR sig nD τ) ℕ cfg0 c) (h3 : ∀ t, dat.after 3 t = outBlk m c t)
    (t : Fin cfg0.N) :
    dat.flushed 3 t = ((cfg0.win 3).blk t).view.read (Elt Ideal) (G (V m c main_arg0) (V m c main_arg1) (V m c main_arg2)) := by
  show (cfg0.win 3).cut (grid0.coords t) (dat.after 3 t) = _
  rw [h3]
  funext j
  obtain ⟨_, _, _, _, _, _, e0, e1, hx⟩ := index_facts t
  obtain ⟨s0, _, _⟩ := size_facts t
  have ht : t.val < 20 := lt_of_lt_of_eq t.isLt N_0
  have hj0 : (j 0).val < win0_3.xsize (grid0.coords t) (0 : Fin 2) := (j 0).isLt
  have hr : (j 0).val < 504 := Nat.lt_of_lt_of_le (j 0).isLt (win0_3.xsize_le (grid0.coords t) (0 : Fin 2))
  have hc : (j 1).val < 128 := Nat.lt_of_lt_of_le (j 1).isLt (win0_3.xsize_le (grid0.coords t) (1 : Fin 2))
  have hR : 504 * t.val + (j 0).val < 10000 := by omega
  have e : win0_3.xinj (grid0.coords t) j = ix2 (⟨(j 0).val, hr⟩ : Fin 504) (⟨(j 1).val, hc⟩ : Fin 128) :=
    funext fun a => by match a with | ⟨0, _⟩ => rfl | ⟨1, _⟩ => rfl
  have eR : ((cfg0.win 3).blk t).view.emb j = ix2 (⟨504 * t.val + (j 0).val, hR⟩ : Fin 10000) (⟨(j 1).val, hc⟩ : Fin 128) :=
    funext fun a => Fin.ext (by
      match a with
      | ⟨0, _⟩ => show win0_3.index t (0 : Fin 2) * 504 + 1 * (j 0).val = 504 * t.val + (j 0).val; rw [e0]; omega
      | ⟨1, _⟩ => show win0_3.index t (1 : Fin 2) * 128 + 1 * (j 1).val = (j 1).val; rw [e1]; omega)
  show outBlk m c t (win0_3.xinj (grid0.coords t) j)
     = G (V m c main_arg0) (V m c main_arg1) (V m c main_arg2) (((cfg0.win 3).blk t).view.emb j)
  rw [e, eR]
  unfold outBlk
  rw [pay2_apply, S0_eq]
  have ea : (fun k : Fin 10000 => adjPad m c t (ix2 (⟨(j 0).val, hr⟩ : Fin 504) k))
      = fun k => V m c main_arg1 (ix2 (⟨504 * t.val + (j 0).val, hR⟩ : Fin 10000) k) :=
    funext fun k => adjPad_apply m c t _ k (lt_of_lt_of_eq hj0 s0.symm) _ rfl
  rw [ea]
  rfl

/-! ## The blocks cover the array -/

/-- An entry of the result is in point t's block iff, on each axis, its coordinate lies in the block's range cut
    at the array's end. -/
theorem mem_blk3 (t : Fin cfg0.N) (i : S10000x128.Idx) :
    i ∈ ((cfg0.win 3).blk t).view.set ↔ ∀ a : Fin 2, win0_3.index t a * S504x128.size a ≤ (i a).val
      ∧ (i a).val < win0_3.index t a * S504x128.size a + win0_3.xsize (grid0.coords t) a := by
  show i ∈ ((View.whole main_v0).slice (win0_3.rect t)).set ↔ _
  rw [View.set_slice_whole, Rect.mem_set_unit]
  exact Iff.rfl

/-- Row r of the result lies in the block of point r / 504, which is written back. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 504 :=
    ⟨⟨(i 0).val / 504, lt_of_lt_of_eq (show (i 0).val / 504 < 20 by omega) N_0.symm⟩, rfl⟩
  obtain ⟨_, _, _, _, _, _, e0, e1, hx⟩ := index_facts t
  obtain ⟨_, _, s1⟩ := size_facts t
  refine ⟨t, flush0_3 t, (mem_blk3 t i).mpr fun a => ?_⟩
  match a with
  | ⟨0, _⟩ =>
    show win0_3.index t (0 : Fin 2) * 504 ≤ (i 0).val
      ∧ (i 0).val < win0_3.index t (0 : Fin 2) * 504 + win0_3.xsize (grid0.coords t) (0 : Fin 2)
    rw [e0]; omega
  | ⟨1, _⟩ =>
    show win0_3.index t (1 : Fin 2) * 128 ≤ (i 1).val
      ∧ (i 1).val < win0_3.index t (1 : Fin 2) * 128 + win0_3.xsize (grid0.coords t) (1 : Fin 2)
    rw [e1, s1]; omega

/-! ## The whole result array -/

/-- After all twenty write-backs the result array holds the specification: for any proof data whose result
    window's staging contents after the body are the rectified product of the padded block with x · W. -/
theorem final_of (dat : Pipeline.Dat τ (Elt Ideal) Unit ℕ (UR sig nD τ) ℕ cfg0 c) (h3 : ∀ t, dat.after 3 t = outBlk m c t) :
    dat.arrAt 3 cfg0.N = Cert.GcnSpec.G (V m c main_arg0) (V m c main_arg1) (V m c main_arg2) :=
  dat.arrAt_eq_of_cover 3 _ (fun t _ => flushed_eq m c dat h3 t) (fun i => cover i)

end Cert.KernelIdeal.Blocks

end
-- ==== Proof.FinalIdeal.lean ====
/-
  The idealized kernel's result, named. Every weakly fair execution ends with the result array holding the layer's
  specification of the three argument arrays — relu (adj · (x · W)), entry by entry over the extended reals — and
  the arguments as launched: the run's per-window contents, the result's window read through the cover of the
  array by its twenty row blocks (the last one cut at the array's end), the inputs never written.
-/
import proofs.«115860_g23965917511725_cont_8to1_1037_8_alg».proof.Proof.ValueIdeal
import proofs.«115860_g23965917511725_cont_8to1_1037_8_alg».proof.Proof.BlocksIdeal

set_option maxRecDepth 16384

noncomputable section

namespace Cert.KernelIdeal.ValueProof

open Cert.KernelIdeal Cert.KernelIdeal.Gen Cert.KernelIdeal.Blocks
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- Each row of the stored block reads one row of the adjacency block: the rows inside the array do not see the
    staging buffer's rows past the array's end. -/
theorem rowLocal : RowLocal m := fun c t d S => cut_out_indep m c t d S

/-- The kernel's run with its result: the layer's specification of the arguments, which end unchanged. -/
theorem value_run :
    θ_run defs (onTc (τ := τ) (main (F := Ideal))) ⟨m, fun _ => 0, ρ⟩ (fun r => ∀ c : Dev nD,
      r.2.mem ((c.tc : Thread nD τ).loc main_v0)
          = Cert.GcnSpec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_of m c (dats m 0 c) (after0_3 m c)),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c)))⟩)
    (run_main m ρ (rowLocal m))

end Cert.KernelIdeal.ValueProof

end
-- ==== Proof.RefIsSpec.lean ====
/-
  The reference program computes the layer's specification.
  The reference is three stages: the product x · W, the product of adj with that, and the maximum with a
  broadcast zero. Read at an entry (r, c), the last stage is the maximum of the second stage's entry with the
  zero word; the second stage's entry is the sum over k of adj[r, k] times the first stage's entry (k, c); and
  that entry is the sum over j of x[k, j] · W[j, c]. This is, term for term, the specification's entry (r, c):
  the only work is to see that the operand positions the stages name are the positions (r, k), (k, c), (k, j)
  and (j, c).
-/
import proofs.«115860_g23965917511725_cont_8to1_1037_8_alg».proof.Proof.Gen.ReferenceIdeal.Read
import proofs.«115860_g23965917511725_cont_8to1_1037_8_alg».proof.Proof.Spec

noncomputable section

open scoped BigOperators

namespace Cert.GcnRef

open Idealize.ShloMosaic Idealize.ShloMosaic.ValueIdx Cert.ReferenceIdeal Cert.ReferenceIdeal.Read Cert.GcnSpec

/-- In the outer product the left operand of entry (r, c) at contraction position k sits at (r, k). -/
theorem lidx_outer (r : Fin 10000) (c : Fin 128) (k : Fin 10000) : lidx_main_v1 (ix2 r c) k = ix2 r k :=
  funext fun a => Fin.ext (by match a with | ⟨0, _⟩ => rfl | ⟨1, _⟩ => rfl)

/-- … and the right operand at (k, c). -/
theorem ridx_outer (r : Fin 10000) (c : Fin 128) (k : Fin 10000) : ridx_main_v1 (ix2 r c) k = ix2 k c :=
  funext fun a => Fin.ext (by match a with | ⟨0, _⟩ => rfl | ⟨1, _⟩ => rfl)

/-- In the inner product the left operand of entry (k, c) at contraction position j sits at (k, j). -/
theorem lidx_inner (k : Fin 10000) (c : Fin 128) (j : Fin 128) : lidx_main_v0 (ix2 k c) j = ix2 k j :=
  funext fun a => Fin.ext (by match a with | ⟨0, _⟩ => rfl | ⟨1, _⟩ => rfl)

/-- … and the right operand at (j, c). -/
theorem ridx_inner (k : Fin 10000) (c : Fin 128) (j : Fin 128) : ridx_main_v0 (ix2 k c) j = ix2 j c :=
  funext fun a => Fin.ext (by match a with | ⟨0, _⟩ => rfl | ⟨1, _⟩ => rfl)

/-- The reference's result is the specification: entry (r, c) is the maximum with zero of
    Σ_k adj[r, k] · (Σ_j x[k, j] · W[j, c]). -/
theorem ref_eq_G (x : (⟨Cert.ReferenceIdeal.S10000x128, .f32⟩ : BufTy).Contents (Elt Ideal))
    (adj : (⟨Cert.ReferenceIdeal.S10000x10000, .f32⟩ : BufTy).Contents (Elt Ideal))
    (W : (⟨Cert.ReferenceIdeal.S128x128, .f32⟩ : BufTy).Contents (Elt Ideal)) :
    Cert.ReferenceIdeal.Read.val_main_v2 (F := Ideal) x adj W = Cert.GcnSpec.G x adj W := by
  funext i
  obtain ⟨r, c, rfl⟩ : ∃ (r : Fin 10000) (c : Fin 128), i = ix2 r c := ⟨i 0, i 1, eq_ix2 i⟩
  rw [val_main_v2_apply, val_main_v1_apply, val_main_call0_v0_apply, val_main_call0_cst_apply, G_apply]
  simp only [lidx_outer, ridx_outer, val_main_v0_apply, lidx_inner, ridx_inner, Ideal.maximumf_def]
  rfl

end Cert.GcnRef

end
-- ==== Proof.lean ====
/-
  The certificate of a graph-convolution layer, relu (adj · (x · W)) with x : [10000, 128], adj : [10000, 10000],
  W : [128, 128], computed by a kernel that walks the adjacency matrix in twenty blocks of 504 rows (the last block
  overhangs the matrix by 80 rows and is cut there), projects the features x · W once, at the first block, into a
  scratch it keeps for the remaining blocks, and stores the rectified product of each block with the projected
  features — against the two matrix products and the rectifier written directly.

  Over the extended reals both programs compute, at entry (r, c), max (Σ_k adj[r, k] · (Σ_j x[k, j] · W[j, c])) 0, with
  the same association of the two products, so the two results agree with no use of the inputs' finiteness: the
  reference's term is that function by reading its two contractions at an index, the kernel's result is that
  function because every row of the result lies in exactly one block's rows inside the matrix and each stored row
  reads only its own row of the adjacency block and the whole of the projected features.

  The three frames: the kernel as printed runs to the end without fault and leaves x, adj and W as launched (its
  result is not described there); the idealized kernel's frame is its run with the result dropped; the reference's
  frame is its run with the result dropped. The idealization rewrote no operation, so nothing is owed for it.
-/
import proofs.«115860_g23965917511725_cont_8to1_1037_8_alg».proof.Defs
import proofs.«115860_g23965917511725_cont_8to1_1037_8_alg».proof.Proof.Gen.Kernel
import proofs.«115860_g23965917511725_cont_8to1_1037_8_alg».proof.Proof.Gen.KernelIdeal
import proofs.«115860_g23965917511725_cont_8to1_1037_8_alg».proof.Proof.Gen.ReferenceIdeal
import proofs.«115860_g23965917511725_cont_8to1_1037_8_alg».proof.Proof.Gen.ReferenceIdeal.Run
import proofs.«115860_g23965917511725_cont_8to1_1037_8_alg».proof.Proof.Gen.ReferenceIdeal.Read
import proofs.«115860_g23965917511725_cont_8to1_1037_8_alg».proof.Proof.Gen.Pre_finite_inputs
import proofs.«115860_g23965917511725_cont_8to1_1037_8_alg».proof.Proof.FrameBits
import proofs.«115860_g23965917511725_cont_8to1_1037_8_alg».proof.Proof.FinalIdeal
import proofs.«115860_g23965917511725_cont_8to1_1037_8_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed: terminates, faults nowhere, arguments unchanged. -/
theorem frame_k : Cert.frame_Kernel := fun m ρ _ => Cert.Kernel.FrameProof.frame (F := Bits) m ρ

/-- The idealized kernel: its run with the result dropped. -/
theorem frame_ki : Cert.frame_KernelIdeal := fun m ρ _ =>
  (θ_run Cert.KernelIdeal.defs _ _).mono (fun _ h c => (h c).2) (Cert.KernelIdeal.ValueProof.value_run m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's specification of them. -/
theorem algebraic : Cert.algebraic_KernelIdeal_ReferenceIdeal := by
  intro m ρ m' ρ' _ hagree
  refine ⟨_, Cert.KernelIdeal.ValueProof.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.GcnRef.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
